-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3600 : Shape := ⟨2, ![4096, 3600]⟩
abbrev S6272x3600 : Shape := ⟨2, ![6272, 3600]⟩
abbrev S6272 : Shape := ⟨1, ![6272]⟩
abbrev S_ : Shape := ⟨0, ![]⟩

class Facts : Prop where
  bcast_S_S4096x3600 : S_.BroadcastsInDim S4096x3600 (![] : Fin 0 → Fin S4096x3600.rank)
  reducesTo_S4096x3600_S_d0_1 : S4096x3600.ReducesTo [0, 1] S_
  h_S_ : 0 < S_.numel
  bcast_S_S6272x3600 : S_.BroadcastsInDim S6272x3600 (![] : Fin 0 → Fin S6272x3600.rank)
  reducesTo_S6272x3600_S_d0_1 : S6272x3600.ReducesTo [0, 1] S_
  bcast_S_S6272 : S_.BroadcastsInDim S6272 (![] : Fin 0 → Fin S6272.rank)
  reducesTo_S6272_S_d0 : S6272.ReducesTo [0] S_

variable [Facts]

def fn {F : FTy → Type} [FloatOps F] (main_arg0 : FVec F S4096x3600 .f32) (main_arg1 : FVec F S6272x3600 .f32) (main_arg2 : FVec F S6272 .f32) : IVec S_ 1 :=
  let main_v0 : FVec F S4096x3600 .f32 := Host.absf main_arg0
  let main_cst : FVec F S_ .f32 := constant S_ .f32 0x7F800000#32
  let main_v1 : FVec F S4096x3600 .f32 := broadcastInDim S4096x3600 ![] bcast_S_S4096x3600 main_cst
  let main_v2 : IVec S4096x3600 1 := cmpf .olt main_v0 main_v1
  let main_c : IVec S_ 1 := constantI S_ 1 1#1
  let main_v3 : IVec S_ 1 := (fun x v => Host.reduce IntOp.andi x v reducesTo_S4096x3600_S_d0_1 h_S_) main_v2 main_c
  let main_v4 : FVec F S6272x3600 .f32 := Host.absf main_arg1
  let main_cst_0 : FVec F S_ .f32 := constant S_ .f32 0x7F800000#32
  let main_v5 : FVec F S6272x3600 .f32 := broadcastInDim S6272x3600 ![] bcast_S_S6272x3600 main_cst_0
  let main_v6 : IVec S6272x3600 1 := cmpf .olt main_v4 main_v5
  let main_c_1 : IVec S_ 1 := constantI S_ 1 1#1
  let main_v7 : IVec S_ 1 := (fun x v => Host.reduce IntOp.andi x v reducesTo_S6272x3600_S_d0_1 h_S_) main_v6 main_c_1
  let main_v8 : IVec S_ 1 := andi main_v3 main_v7
  let main_v9 : FVec F S6272 .f32 := Host.absf main_arg2
  let main_cst_2 : FVec F S_ .f32 := constant S_ .f32 0x7F800000#32
  let main_v10 : FVec F S6272 .f32 := broadcastInDim S6272 ![] bcast_S_S6272 main_cst_2
  let main_v11 : IVec S6272 1 := cmpf .olt main_v9 main_v10
  let main_c_3 : IVec S_ 1 := constantI S_ 1 1#1
  let main_v12 : IVec S_ 1 := (fun x v => Host.reduce IntOp.andi x v reducesTo_S6272_S_d0 h_S_) main_v11 main_c_3
  let main_v13 : IVec S_ 1 := andi main_v8 main_v12
  main_v13
-- ==== Kernel.lean ====
abbrev S4096x3600 : Shape := ⟨2, ![4096, 3600]⟩
abbrev S6272x3600 : Shape := ⟨2, ![6272, 3600]⟩
abbrev S6272 : Shape := ⟨1, ![6272]⟩
abbrev S1x6272 : Shape := ⟨2, ![1, 6272]⟩
abbrev S4096x6272 : Shape := ⟨2, ![4096, 6272]⟩
abbrev S256x3600 : Shape := ⟨2, ![256, 3600]⟩
abbrev S896x3600 : Shape := ⟨2, ![896, 3600]⟩
abbrev S1x896 : Shape := ⟨2, ![1, 896]⟩
abbrev S256x896 : Shape := ⟨2, ![256, 896]⟩

abbrev nBuf : Space → Nat
  | .hbm => 5
  | .vmem => 8
  | .smem => 0
  | _ => 0

abbrev bufTy : (tb : Table) → Fin (tcTables nBuf tb) → BufTy
  | .hbm, ⟨0, _⟩ => ⟨S4096x3600, .f32⟩
  | .hbm, ⟨1, _⟩ => ⟨S6272x3600, .f32⟩
  | .hbm, ⟨2, _⟩ => ⟨S6272, .f32⟩
  | .hbm, ⟨3, _⟩ => ⟨S1x6272, .f32⟩
  | .hbm, ⟨4, _⟩ => ⟨S4096x6272, .f32⟩
  | .local _ .vmem, ⟨0, _⟩ => ⟨S256x3600, .f32⟩
  | .local _ .vmem, ⟨1, _⟩ => ⟨S256x3600, .f32⟩
  | .local _ .vmem, ⟨2, _⟩ => ⟨S896x3600, .f32⟩
  | .local _ .vmem, ⟨3, _⟩ => ⟨S896x3600, .f32⟩
  | .local _ .vmem, ⟨4, _⟩ => ⟨S1x896, .f32⟩
  | .local _ .vmem, ⟨5, _⟩ => ⟨S1x896, .f32⟩
  | .local _ .vmem, ⟨6, _⟩ => ⟨S256x896, .f32⟩
  | .local _ .vmem, ⟨7, _⟩ => ⟨S256x896, .f32⟩
  | _, _ => ⟨S4096x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x3600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S896x3600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S6272_S1x6272 : S6272.ShapeCasts S1x6272
  inb_S256x3600_S256x3600_0_0 : ∀ a, (![0, 0] : Fin 2 → Nat) a + S256x3600.size a ≤ S256x3600.size a
  h_S256x3600 : 0 < S256x3600.numel
  bitsLt_bf16_f32 : FTy.bits .bf16 < FTy.bits .f32
  inb_S896x3600_S896x3600_0_0 : ∀ a, (![0, 0] : Fin 2 → Nat) a + S896x3600.size a ≤ S896x3600.size a
  h_S896x3600 : 0 < S896x3600.numel
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S256x896 : S1x896.Broadcasts S256x896
  inb_S256x896_S256x896_0_0 : ∀ a, (![0, 0] : Fin 2 → Nat) a + S256x896.size a ≤ S256x896.size a
  h_S256x896 : 0 < S256x896.numel
  dot_S256x3600_S896x3600_S256x896_1_1_0_0_n_n_wf : DotDims.WF S256x3600 S896x3600 S256x896 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3600.size a ≤ S4096x3600.size a
  hwx0_0 : ∀ i : grid0.Coords, EltTy.bits .f32 = 32 ∨ (Rect.block (s := S4096x3600) S256x3600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S896x3600.size a ≤ S6272x3600.size a
  hwx0_1 : ∀ i : grid0.Coords, EltTy.bits .f32 = 32 ∨ (Rect.block (s := S6272x3600) S896x3600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x896.size a ≤ S1x6272.size a
  hwx0_2 : ∀ i : grid0.Coords, EltTy.bits .f32 = 32 ∨ (Rect.block (s := S1x6272) S1x896.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x896.size a ≤ S4096x6272.size a
  hwx0_3 : ∀ i : grid0.Coords, EltTy.bits .f32 = 32 ∨ (Rect.block (s := S4096x6272) S256x896.size (cc0_transform_3 i) (hinb0_3 i)).WholeWords (EltTy.packing .f32)

variable [Facts₀]

def dot_S256x3600_S896x3600_S256x896_1_1_0_0_n_n : DotDims S256x3600 S896x3600 S256x896 where
  lhsContracting := [1]
  rhsContracting := [1]
  lhsNonContracting := [0]
  rhsNonContracting := [0]
  lhsBatch := []
  rhsBatch := []
  wf := dot_S256x3600_S896x3600_S256x896_1_1_0_0_n_n_wf

abbrev win0_0 : Pipeline.Window sig grid0 :=
  Pipeline.Window.ofSpec (Memref.whole main_arg0) S256x3600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S896x3600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x896.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x896.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x3600 : Shape := ⟨2, ![4096, 3600]⟩
abbrev S6272x3600 : Shape := ⟨2, ![6272, 3600]⟩
abbrev S6272 : Shape := ⟨1, ![6272]⟩
abbrev S3600x6272 : Shape := ⟨2, ![3600, 6272]⟩
abbrev S4096x6272 : Shape := ⟨2, ![4096, 6272]⟩
abbrev S1x6272 : Shape := ⟨2, ![1, 6272]⟩

abbrev nBuf : Space → Nat
  | .hbm => 8
  | .vmem => 0
  | .smem => 0
  | _ => 0

abbrev bufTy : (tb : Table) → Fin (tcTables nBuf tb) → BufTy
  | .hbm, ⟨0, _⟩ => ⟨S4096x3600, .f32⟩
  | .hbm, ⟨1, _⟩ => ⟨S6272x3600, .f32⟩
  | .hbm, ⟨2, _⟩ => ⟨S6272, .f32⟩
  | .hbm, ⟨3, _⟩ => ⟨S3600x6272, .f32⟩
  | .hbm, ⟨4, _⟩ => ⟨S4096x6272, .f32⟩
  | .hbm, ⟨5, _⟩ => ⟨S1x6272, .f32⟩
  | .hbm, ⟨6, _⟩ => ⟨S4096x6272, .f32⟩
  | .hbm, ⟨7, _⟩ => ⟨S4096x6272, .f32⟩
  | _, _ => ⟨S4096x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S6272x3600_S3600x6272_1_0 : S6272x3600.Transposes [1, 0] S3600x6272
  bcast_S6272_S1x6272_1 : S6272.BroadcastsInDim S1x6272 (![1] : Fin 1 → Fin S1x6272.rank)
  bcast_S1x6272_S4096x6272_0_1 : S1x6272.BroadcastsInDim S4096x6272 (![0, 1] : Fin 2 → Fin S4096x6272.rank)
  dot_S4096x3600_S3600x6272_S4096x6272_1_0_0_1_n_n_wf : DotDims.WF S4096x3600 S3600x6272 S4096x6272 [1] [0] [0] [1] [] []

variable [Facts₀]

def dot_S4096x3600_S3600x6272_S4096x6272_1_0_0_1_n_n : DotDims S4096x3600 S3600x6272 S4096x6272 where
  lhsContracting := [1]
  rhsContracting := [0]
  lhsNonContracting := [0]
  rhsNonContracting := [1]
  lhsBatch := []
  rhsBatch := []
  wf := dot_S4096x3600_S3600x6272_S4096x6272_1_0_0_1_n_n_wf

class Facts : Prop extends Facts₀ where

variable [Facts]
-- ==== Proof.Affine.lean ====
/-
  The specification: a dense layer.

  For a [4096, 3600] matrix `x`, a [6272, 3600] matrix `w` and a vector `b` of length 6272, the result is the
  [4096, 6272] matrix `x · wᵀ + b`: its entry at row `r` and column `c` is the inner product of row `r` of `x` with
  row `c` of `w` (a sum over the 3600 shared positions), plus `b c`. Values are extended reals.
-/
import Idealize.ShloMosaic.PureOps.Ideal
import Idealize.ShloMosaic.Lib.ValueIdx

noncomputable section

namespace Cert.Affine

open Idealize.ShloMosaic Idealize.ShloMosaic.ValueIdx

/-- `x · wᵀ + b`, entry by entry: at `(r, c)` the sum over `k` of `x (r, k) · w (c, k)`, plus `b c`. -/
def out (x : FVec Ideal ⟨2, ![4096, 3600]⟩ .f32) (w : FVec Ideal ⟨2, ![6272, 3600]⟩ .f32) (b : FVec Ideal ⟨1, ![6272]⟩ .f32) :
    FVec Ideal ⟨2, ![4096, 6272]⟩ .f32 :=
  fun i => (∑ k : Fin 3600, x (ix2 (i 0) k) * w (ix2 (i 1) k)) + b (ix1 (i 1))

theorem out_apply (x : FVec Ideal ⟨2, ![4096, 3600]⟩ .f32) (w : FVec Ideal ⟨2, ![6272, 3600]⟩ .f32) (b : FVec Ideal ⟨1, ![6272]⟩ .f32)
    (r : Fin 4096) (c : Fin 6272) :
    out x w b (ix2 r c) = (∑ k : Fin 3600, x (ix2 r k) * w (ix2 c k)) + b (ix1 c) := rfl

end Cert.Affine

end
-- ==== Proof.RefAffine.lean ====
/-
  The reference computes the dense layer `x · wᵀ + b`.

  It transposes `w` to a [3600, 6272] matrix, multiplies `x` by it (entry `(r, c)`: the sum over `k` of
  `x (r, k) · wᵀ (k, c)`, and `wᵀ (k, c) = w (c, k)`), stretches `b` along the rows, and adds. Entry by entry this is
  the specification.
-/
import proofs.«156233_j63539746177447_1_alg».proof.Proof.Gen.ReferenceIdeal.Read
import proofs.«156233_j63539746177447_1_alg».proof.Proof.Affine

noncomputable section

namespace Cert.ReferenceIdeal.RefValue

open Cert.ReferenceIdeal Cert.ReferenceIdeal.Gen Cert.ReferenceIdeal.Read Idealize.ShloMosaic Idealize.ShloMosaic.ValueIdx

/-- The left factor of the product at `(r, c)` and position `k` sits at `(r, k)` of `x`. -/
theorem lidx_eq (i : S4096x6272.Idx) (k : Fin 3600) : lidx_main_v1 i k = ix2 (i 0) k :=
  funext fun a => Fin.ext (by match a with | ⟨0, _⟩ => rfl | ⟨1, _⟩ => rfl)

/-- The right factor sits at `(k, c)` of the transposed matrix, which is `(c, k)` of `w`. -/
theorem ridx_eq (i : S4096x6272.Idx) (k : Fin 3600) : idx_main_v0 (ridx_main_v1 i k) = ix2 (i 1) k :=
  funext fun a => Fin.ext (by match a with | ⟨0, _⟩ => rfl | ⟨1, _⟩ => rfl)

/-- The stretched bias at `(r, c)` is `b c`. -/
theorem bidx_eq (i : S4096x6272.Idx) : idx_main_v2 (idx_main_v3 i) = ix1 (i 1) :=
  funext fun a => Fin.ext (by match a with | ⟨0, _⟩ => rfl)

/-- The reference's result, as a function of its three arguments, is the specification. -/
theorem ref_eq (x0 : FVec Ideal S4096x3600 .f32) (x1 : FVec Ideal S6272x3600 .f32) (x2 : FVec Ideal S6272 .f32) :
    val_main_v4 (F := Ideal) x0 x1 x2 = Cert.Affine.out x0 x1 x2 := by
  funext i
  rw [val_main_v4_apply, val_main_v1_apply, val_main_v3_apply, val_main_v2_apply]
  simp only [val_main_v0_apply, lidx_eq, ridx_eq, bidx_eq]
  rfl

end Cert.ReferenceIdeal.RefValue

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.Payload.lean ====
/-
  What the kernel's body computes on one tile.

  The body takes a [256, 3600] tile `a` of `x`, a [896, 3600] tile `b` of `w` and a [1, 896] tile `s` of the bias row,
  and forms `a · bᵀ` (into a zero accumulator) plus `s` stretched along the 256 rows. Changing the number format of
  `a` and `b` before the product changes nothing on exact values. So the tile's entry at `(p, q)` is the sum over `k`
  of `a (p, k) · b (q, k)`, plus `s (0, q)`.
-/
import proofs.«156233_j63539746177447_1_alg».proof.Proof.Gen.KernelIdeal.Skeleton
import proofs.«156233_j63539746177447_1_alg».proof.Proof.LibMatmulT
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The bias row stretched along the rows, at `(p, q)`: the row's entry `q`. -/
theorem bias_apply (s : Vec Ideal S1x896 .f32) (p : Fin 256) (q : Fin 896) :
    broadcastTo S256x896 (shapeCast S1x896 s shapeCasts_S1x896_S1x896) broadcasts_S1x896_S256x896 (ix2 p q)
      = s (ix2 (0 : Fin 1) q) := by
  rw [shapeCast_self]
  refine broadcastTo_apply s broadcasts_S1x896_S256x896 (ix2 p q) (ix2 (0 : Fin 1) q) (fun a => ?_)
  match a with
  | ⟨0, _⟩ => rfl
  | ⟨1, _⟩ => rfl

/-- The tile the body stores, at `(p, q)`. -/
theorem pay_apply (a : Vec Ideal S256x3600 .f32) (b : Vec Ideal S896x3600 .f32) (s : Vec Ideal S1x896 .f32)
    (p : Fin 256) (q : Fin 896) :
    k0_pay1 (F := Ideal) a b s (ix2 p q) = (∑ k : Fin 3600, a (ix2 p k) * b (ix2 q k)) + s (ix2 (0 : Fin 1) q) := by
  have h1 := MatmulT.matmul_zero_apply dot_S256x3600_S896x3600_S256x896_1_1_0_0_n_n_wf none
    (truncf .bf16 a bitsLt_bf16_f32 : FVec Ideal S256x3600 .bf16) (truncf .bf16 b bitsLt_bf16_f32 : FVec Ideal S896x3600 .bf16) p q
  have h2 := bias_apply s p q
  exact congrArg₂ (· + ·) h1 h2

end Cert.KernelIdeal.Tile

end
-- ==== Proof.Whole.lean ====
/-
  From tiles to the whole result.

  The grid has 7 × 16 points. At the point with block indices `(I, J)` of the output (rows `256·I …`, columns
  `896·J …`) the body is given rows `256·I …` of `x` (all 3600 columns), rows `896·J …` of `w` (all 3600
  columns) and columns `896·J …` of the bias row, and writes back a [256, 896] tile. By the tile formula that tile is
  exactly the restriction of `x · wᵀ + b` to those rows and columns; the tiles cover the [4096, 6272] result; so the
  result array ends holding `x · wᵀ + b`.
-/
import proofs.«156233_j63539746177447_1_alg».proof.Proof.Gen.KernelIdeal.Value
import proofs.«156233_j63539746177447_1_alg».proof.Proof.Payload
import proofs.«156233_j63539746177447_1_alg».proof.Proof.Affine
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- How the four block indices move together over the grid: the tile of `x` shares the output tile's row block and
    spans all columns; the tile of `w` has as its row block the output tile's column block and spans all columns; the
    bias tile sits in the one row at the output tile's column block; and the output's block indices stay in range. -/
theorem tiles : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 6 :=
  (by decide +kernel : ∀ t : Fin grid0.N, _)

/-- Every one of the 16 × 7 output tiles is some grid point's. -/
theorem tiles_onto : ∀ (q0 : Fin 16) (q1 : Fin 7), ∃ t : Fin cfg0.N, win0_3.index t = ![q0.val, q1.val] :=
  (by decide +kernel : ∀ (q0 : Fin 16) (q1 : Fin 7), ∃ t : Fin grid0.N, win0_3.index t = ![q0.val, q1.val])

/-- The bias row the region finds is the bias vector laid out as one row: its entry `(0, j)` is `b j`. -/
theorem bias_row (c : Dev nD) (j : Fin 6272) :
    V m c main_v0 (ix2 (0 : Fin 1) j) = m ((c : Thread nD τ).loc main_arg2) (ix1 j) := by
  have e : (V m c main_v0 : S1x6272.Idx → EReal)
      = shapeCast S1x6272 (m ((c : Thread nD τ).loc main_arg2)) shapeCasts_S6272_S1x6272 := by
    dsimp only [Gen.V, Gen.hostOps0]; after_results; rfl
  rw [e]
  refine shapeCast_apply _ _ (ix2 (0 : Fin 1) j) (ix1 j) ?_
  rw [Shape.rowMajor_val_two, Shape.rowMajor_val_one]
  show j.val = 0 * 6272 + j.val
  omega

/-- What point `t` writes back is the restriction of `x · wᵀ + b` to the point's tile. -/
theorem flushed_eq (c : Dev nD) (t : Fin cfg0.N) :
    (dats m 0 c).flushed 3 t = ((cfg0.win 3).blk t).view.read (Elt Ideal)
      (Cert.Affine.out (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S256x3600) origin, View.ld_unit_zero (S := S896x3600) origin, View.ld_unit_zero (S := S1x896) origin]
  obtain ⟨e00, e01, e10, e11, e20, e21, b0, b1⟩ := tiles t
  refine funext fun (j : S256x896.Idx) => ?_
  obtain ⟨p, q, rfl⟩ : ∃ (p : Fin 256) (q : Fin 896), j = ix2 p q := ⟨j 0, j 1, eq_ix2 j⟩
  show k0_pay1 (F := Ideal) (iblk m c 0 t) (iblk m c 1 t) (iblk m c 2 t) (ix2 p q)
    = Cert.Affine.out _ _ _ (((cfg0.win 3).blk t).view.emb (ix2 p q))
  refine (Tile.pay_apply (iblk m c 0 t) (iblk m c 1 t) (iblk m c 2 t) p q).trans ?_
  have hx : ∀ k : Fin 3600, iblk m c 0 t (ix2 p k)
      = m ((c : Thread nD τ).loc main_arg0) (ix2 ((((cfg0.win 3).blk t).view.emb (ix2 p q)) 0) k) := by
    intro k
    show V m c main_arg0 (((cfg0.win 0).blk t).view.emb (ix2 p k)) = _
    refine (congrFun (V_main_arg0 m c) _).trans (congrArg _ (funext fun a => Fin.ext ?_))
    match a with
    | ⟨0, _⟩ => show win0_0.index t (0 : Fin 2) * 256 + 1 * p.val = win0_3.index t (0 : Fin 2) * 256 + 1 * p.val; omega
    | ⟨1, _⟩ => show win0_0.index t (1 : Fin 2) * 3600 + 1 * k.val = k.val; omega
  have hw : ∀ k : Fin 3600, iblk m c 1 t (ix2 q k)
      = m ((c : Thread nD τ).loc main_arg1) (ix2 ((((cfg0.win 3).blk t).view.emb (ix2 p q)) 1) k) := by
    intro k
    show V m c main_arg1 (((cfg0.win 1).blk t).view.emb (ix2 q k)) = _
    refine (congrFun (V_main_arg1 m c) _).trans (congrArg _ (funext fun a => Fin.ext ?_))
    match a with
    | ⟨0, _⟩ => show win0_1.index t (0 : Fin 2) * 896 + 1 * q.val = win0_3.index t (1 : Fin 2) * 896 + 1 * q.val; omega
    | ⟨1, _⟩ => show win0_1.index t (1 : Fin 2) * 3600 + 1 * k.val = k.val; omega
  have hb : iblk m c 2 t (ix2 (0 : Fin 1) q)
      = m ((c : Thread nD τ).loc main_arg2) (ix1 ((((cfg0.win 3).blk t).view.emb (ix2 p q)) 1)) := by
    show V m c main_v0 (((cfg0.win 2).blk t).view.emb (ix2 (0 : Fin 1) q)) = _
    refine Eq.trans (congrArg _ (funext fun a => Fin.ext ?_)) (bias_row m c _)
    match a with
    | ⟨0, _⟩ => show win0_2.index t (0 : Fin 2) * 1 + 1 * 0 = 0; omega
    | ⟨1, _⟩ => show win0_2.index t (1 : Fin 2) * 896 + 1 * q.val = win0_3.index t (1 : Fin 2) * 896 + 1 * q.val; omega
  rw [hb]
  simp only [hx, hw]
  rfl

/-- An index of the result lies in point `t`'s tile iff each coordinate lies in the tile's range on its axis. -/
theorem mem_tile (t : Fin cfg0.N) (i : S4096x6272.Idx) :
    i ∈ ((cfg0.win 3).blk t).view.set ↔ ∀ a : Fin 2, win0_3.index t a * S256x896.size a ≤ (i a).val ∧ (i a).val < win0_3.index t a * S256x896.size a + S256x896.size a := by
  show i ∈ ((View.whole main_v1).slice (win0_3.rect t)).set ↔ _
  rw [View.set_slice_whole, Rect.mem_set_unit]
  exact Iff.rfl

/-- The tiles cover the result: entry `(r, c)` lies in the tile with block indices `(r / 256, c / 896)`. -/
theorem covered (i : S4096x6272.Idx) :
    ∃ t : Fin cfg0.N, (cfg0.win 3).flush t = true ∧ i ∈ ((cfg0.win 3).blk t).view.set := by
  have hi0 : (i 0).val < 4096 := (i 0).isLt
  have hi1 : (i 1).val < 6272 := (i 1).isLt
  obtain ⟨t, ht⟩ := tiles_onto ⟨(i 0).val / 256, by omega⟩ ⟨(i 1).val / 896, by omega⟩
  have q0 : win0_3.index t (0 : Fin 2) = (i 0).val / 256 := congrFun ht 0
  have q1 : win0_3.index t (1 : Fin 2) = (i 1).val / 896 := congrFun ht 1
  refine ⟨t, flush0_3 t, ?_⟩
  rw [mem_tile]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 896 ≤ (i 1).val ∧ (i 1).val < win0_3.index t (1 : Fin 2) * 896 + 896; omega

/-- After the run the result array holds `x · wᵀ + b`. -/
theorem final (c : Dev nD) : (dats m 0 c).arrAt 3 cfg0.N
    = Cert.Affine.out (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result at `x · wᵀ + b` of the arguments and
    the arguments unchanged. -/
theorem run : θ_run defs (onTc (τ := τ) (main (F := Ideal))) ⟨m, fun _ => 0, ρ⟩ fun r => ∀ c : Dev nD,
      r.2.mem ((c : Thread nD τ).loc main_v1)
        = Cert.Affine.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A dense layer computed tile by tile equals the dense layer computed at once.

  The kernel computes `x · wᵀ + b` for `x` of shape [4096, 3600], `w` of shape [6272, 3600] and `b` of length 6272, one
  [256, 896] tile of the result per grid point: the tile's rows of `x` times the tile's columns' rows of `w`, summed over
  all 3600 positions at once, plus the tile's stretch of `b`. The reference transposes `w`, multiplies and adds `b`.
  On exact values (extended reals; a change of number format is the identity) both results have, at row `r` and
  column `c`, the sum over `k` of `x (r, k) · w (c, k)`, plus `b c` — the same sum over the same index set, so no
  law of arithmetic beyond `0 + s = s` (the kernel's zero accumulator) is needed, and the inputs' finiteness is not used.

  `Affine` states that function; `RefAffine` shows the reference's result is it; `Payload` computes one tile of the
  kernel's body, `Whole` assembles the tiles into the whole result; `LibMatmulT` reads a product with a transposed
  right factor at an index. The kernel has no rewritten operation, so the idealization conjunct is trivial.
-/
import proofs.«156233_j63539746177447_1_alg».proof.Defs
import proofs.«156233_j63539746177447_1_alg».proof.Proof.Gen.Kernel
import proofs.«156233_j63539746177447_1_alg».proof.Proof.Gen.Kernel.Skeleton
import proofs.«156233_j63539746177447_1_alg».proof.Proof.Gen.Kernel.Launch
import proofs.«156233_j63539746177447_1_alg».proof.Proof.Gen.Kernel.Points
import proofs.«156233_j63539746177447_1_alg».proof.Proof.Gen.Kernel.Frame
import proofs.«156233_j63539746177447_1_alg».proof.Proof.Gen.KernelIdeal
import proofs.«156233_j63539746177447_1_alg».proof.Proof.Gen.KernelIdeal.Skeleton
import proofs.«156233_j63539746177447_1_alg».proof.Proof.Gen.KernelIdeal.Launch
import proofs.«156233_j63539746177447_1_alg».proof.Proof.Gen.KernelIdeal.Points
import proofs.«156233_j63539746177447_1_alg».proof.Proof.Gen.KernelIdeal.Frame
import proofs.«156233_j63539746177447_1_alg».proof.Proof.Gen.ReferenceIdeal
import proofs.«156233_j63539746177447_1_alg».proof.Proof.Gen.Pre_finite_inputs
import proofs.«156233_j63539746177447_1_alg».proof.Proof.Gen.KernelIdeal.Value
import proofs.«156233_j63539746177447_1_alg».proof.Proof.Gen.ReferenceIdeal.Run
import proofs.«156233_j63539746177447_1_alg».proof.Proof.Gen.ReferenceIdeal.Read
import proofs.«156233_j63539746177447_1_alg».proof.Proof.Affine
import proofs.«156233_j63539746177447_1_alg».proof.Proof.RefAffine
import proofs.«156233_j63539746177447_1_alg».proof.Proof.Whole
import Idealize.ShloMosaic.Adequacy
import Idealize.ShloMosaic.Init

noncomputable section

namespace Cert.Proof

open Idealize.ShloMosaic Idealize.ShloMosaic.TcCoe Idealize.SL.Sem

/-- The kernel's program runs and leaves its arguments unchanged. -/
theorem frame_k : Cert.frame_Kernel := fun m ρ _ => Cert.Kernel.Gen.frame m ρ

/-- So does the program read on exact values. -/
theorem frame_ki : Cert.frame_KernelIdeal := fun m ρ _ => Cert.KernelIdeal.Gen.frame m ρ

/-- The reference runs and leaves its arguments unchanged: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on `x`, `w` and `b`, both programs end with the result at `x · wᵀ + b`: the kernel by
    its tiles, the reference by its five operations read entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
